-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x4096 : Shape := ⟨3, ![8, 1, 4096]⟩
abbrev S11008x4096 : Shape := ⟨2, ![11008, 4096]⟩
abbrev S_ : Shape := ⟨0, ![]⟩

class Facts : Prop where
  bcast_S_S8x1x4096 : S_.BroadcastsInDim S8x1x4096 (![] : Fin 0 → Fin S8x1x4096.rank)
  reducesTo_S8x1x4096_S_d0_1_2 : S8x1x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_

variable [Facts]

def fn {F : FTy → Type} [FloatOps F] (main_arg0 : FVec F S8x1x4096 .f32) (main_arg1 : FVec F S11008x4096 .f32) : IVec S_ 1 :=
  let main_v0 : FVec F S8x1x4096 .f32 := Host.absf main_arg0
  let main_cst : FVec F S_ .f32 := constant S_ .f32 0x7F800000#32
  let main_v1 : FVec F S8x1x4096 .f32 := broadcastInDim S8x1x4096 ![] bcast_S_S8x1x4096 main_cst
  let main_v2 : IVec S8x1x4096 1 := cmpf .olt main_v0 main_v1
  let main_c : IVec S_ 1 := constantI S_ 1 1#1
  let main_v3 : IVec S_ 1 := (fun x v => Host.reduce IntOp.andi x v reducesTo_S8x1x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  main_v8
-- ==== Kernel.lean ====
abbrev S8x1x4096 : Shape := ⟨3, ![8, 1, 4096]⟩
abbrev S11008x4096 : Shape := ⟨2, ![11008, 4096]⟩
abbrev S8x4096 : Shape := ⟨2, ![8, 4096]⟩
abbrev S_ : Shape := ⟨0, ![]⟩
abbrev S11264x4096 : Shape := ⟨2, ![11264, 4096]⟩
abbrev S8x11264 : Shape := ⟨2, ![8, 11264]⟩
abbrev S512x4096 : Shape := ⟨2, ![512, 4096]⟩
abbrev S8x512 : Shape := ⟨2, ![8, 512]⟩
abbrev S8x11008 : Shape := ⟨2, ![8, 11008]⟩
abbrev S8x1x11008 : Shape := ⟨3, ![8, 1, 11008]⟩

abbrev nBuf : Space → Nat
  | .hbm => 9
  | .vmem => 5
  | .smem => 0
  | _ => 0

abbrev bufTy : (tb : Table) → Fin (tcTables nBuf tb) → BufTy
  | .hbm, ⟨0, _⟩ => ⟨S8x1x4096, .f32⟩
  | .hbm, ⟨1, _⟩ => ⟨S11008x4096, .f32⟩
  | .hbm, ⟨2, _⟩ => ⟨S8x4096, .f32⟩
  | .hbm, ⟨3, _⟩ => ⟨S_, .i32⟩
  | .hbm, ⟨4, _⟩ => ⟨S_, .f32⟩
  | .hbm, ⟨5, _⟩ => ⟨S11264x4096, .f32⟩
  | .hbm, ⟨6, _⟩ => ⟨S8x11264, .f32⟩
  | .hbm, ⟨7, _⟩ => ⟨S8x11008, .f32⟩
  | .hbm, ⟨8, _⟩ => ⟨S8x1x11008, .f32⟩
  | .local _ .vmem, ⟨0, _⟩ => ⟨S8x4096, .f32⟩
  | .local _ .vmem, ⟨1, _⟩ => ⟨S512x4096, .f32⟩
  | .local _ .vmem, ⟨2, _⟩ => ⟨S512x4096, .f32⟩
  | .local _ .vmem, ⟨3, _⟩ => ⟨S8x512, .f32⟩
  | .local _ .vmem, ⟨4, _⟩ => ⟨S8x512, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x1x4096_S8x4096 : S8x1x4096.ShapeCasts S8x4096
  pads_S11008x4096_S11264x4096_02560_000 : S11008x4096.Pads (![0, 0] : Fin 2 → Nat) ![256, 0] ![0, 0] S11264x4096
  h_S_ : 0 < S_.numel
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S8x512_S8x512_0_0 : ∀ a, (![0, 0] : Fin 2 → Nat) a + S8x512.size a ≤ S8x512.size a
  h_S8x512 : 0 < S8x512.numel
  slices_S8x11264_S8x11008_0_0 : S8x11264.Slices ![0, 0] S8x11008
  shapeCasts_S8x11008_S8x1x11008 : S8x11008.ShapeCasts S8x1x11008
  dot_S8x4096_S512x4096_S8x512_1_1_0_0_n_n_wf : DotDims.WF S8x4096 S512x4096 S8x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S11264x4096.size a
  hwx0_1 : ∀ i : grid0.Coords, EltTy.bits .f32 = 32 ∨ (Rect.block (s := S11264x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x11264.size a
  hwx0_2 : ∀ i : grid0.Coords, EltTy.bits .f32 = 32 ∨ (Rect.block (s := S8x11264) S8x512.size (cc0_transform_2 i) (hinb0_2 i)).WholeWords (EltTy.packing .f32)

variable [Facts₀]

def dot_S8x4096_S512x4096_S8x512_1_1_0_0_n_n : DotDims S8x4096 S512x4096 S8x512 where
  lhsContracting := [1]
  rhsContracting := [1]
  lhsNonContracting := [0]
  rhsNonContracting := [0]
  lhsBatch := []
  rhsBatch := []
  wf := dot_S8x4096_S512x4096_S8x512_1_1_0_0_n_n_wf

abbrev win0_0 : Pipeline.Window sig grid0 :=
  Pipeline.Window.ofSpec (Memref.whole main_v0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x4096 : Shape := ⟨3, ![8, 1, 4096]⟩
abbrev S11008x4096 : Shape := ⟨2, ![11008, 4096]⟩
abbrev S8x1x11008 : Shape := ⟨3, ![8, 1, 11008]⟩

abbrev nBuf : Space → Nat
  | .hbm => 3
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S11008x4096, .f32⟩
  | .hbm, ⟨2, _⟩ => ⟨S8x1x11008, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x1x4096_S11008x4096_S8x1x11008_2_1_01_0_n_n_wf : DotDims.WF S8x1x4096 S11008x4096 S8x1x11008 [2] [1] [0, 1] [0] [] []

variable [Facts₀]

def dot_S8x1x4096_S11008x4096_S8x1x11008_2_1_01_0_n_n : DotDims S8x1x4096 S11008x4096 S8x1x11008 where
  lhsContracting := [2]
  rhsContracting := [1]
  lhsNonContracting := [0, 1]
  rhsNonContracting := [0]
  lhsBatch := []
  rhsBatch := []
  wf := dot_S8x1x4096_S11008x4096_S8x1x11008_2_1_01_0_n_n_wf

class Facts : Prop extends Facts₀ where

variable [Facts]
-- ==== Proof.Spec.lean ====
/-
  The function both programs compute, index by index, over the extended reals.

  The activation `x` has shape [8, 1, 4096] and the weight `w` has shape [11008, 4096].  The result at
  (b, s, n) is the inner product of row (b, s) of `x` with row n of `w`:

      gemv x w (b, s, n) = ∑ k < 4096, x (b, s, k) * w (n, k).

  The kernel works on the activation flattened to [8, 4096] and on the weight extended by 256 rows to
  [11264, 4096]; on those it computes `rowDots a p (b, n) = ∑ k < 4096, a (b, k) * p (n, k)` for every
  n < 11264, of which the first 11008 columns are kept.  Only commutative-monoid facts about sums are
  needed to join the two: the same products are summed in the same order.
-/
import Idealize.ShloMosaic.Lib.ValueIdx
import Idealize.ShloMosaic.PureOps.Ideal

noncomputable section

namespace Cert.Gemv

open Idealize.ShloMosaic Idealize.ShloMosaic.ValueIdx

/-- The result: entry (b, s, n) is the inner product of row (b, s) of the activation with row n of the weight. -/
def gemv (x : (⟨3, ![8, 1, 4096]⟩ : Shape).Idx → EReal) (w : (⟨2, ![11008, 4096]⟩ : Shape).Idx → EReal) :
    (⟨3, ![8, 1, 11008]⟩ : Shape).Idx → EReal :=
  fun i => ∑ k : Fin 4096, x (ix3 (i 0) (i 1) k) * w (ix2 (i 2) k)

/-- All inner products of the rows of a flattened activation [8, 4096] with the rows of an extended weight [11264, 4096]. -/
def rowDots (a : (⟨2, ![8, 4096]⟩ : Shape).Idx → EReal) (p : (⟨2, ![11264, 4096]⟩ : Shape).Idx → EReal) :
    (⟨2, ![8, 11264]⟩ : Shape).Idx → EReal :=
  fun i => ∑ k : Fin 4096, a (ix2 (i 0) k) * p (ix2 (i 1) k)

end Cert.Gemv

end
-- ==== Proof.RefIsSpec.lean ====
/-
  The reference's one operation, a contraction of axis 2 of the activation with axis 1 of the weight, read at an
  index (b, s, n): the sum over k of x (b, s, k) * w (n, k), which is `gemv`.
-/
import proofs.«121422_j4982162063725_1_alg».proof.Proof.Gen.ReferenceIdeal.Read
import proofs.«121422_j4982162063725_1_alg».proof.Proof.Spec

noncomputable section

namespace Cert.Gemv

open Idealize.ShloMosaic Idealize.ShloMosaic.ValueIdx Cert.ReferenceIdeal Cert.ReferenceIdeal.Read

/-- The left operand's index at output (b, s, n) and contraction coordinate k is (b, s, k). -/
theorem lidx_eq (i : S8x1x11008.Idx) (k : Fin 4096) : lidx_main_v0 i k = ix3 (i 0) (i 1) k :=
  funext fun a => Fin.ext (by match a with | ⟨0, _⟩ => rfl | ⟨1, _⟩ => rfl | ⟨2, _⟩ => rfl)

/-- The right operand's index there is (n, k). -/
theorem ridx_eq (i : S8x1x11008.Idx) (k : Fin 4096) : ridx_main_v0 i k = ix2 (i 2) k :=
  funext fun a => Fin.ext (by match a with | ⟨0, _⟩ => rfl | ⟨1, _⟩ => rfl)

/-- The reference's result is `gemv` of its two arguments. -/
theorem ref_eq_gemv (x : (⟨S8x1x4096, .f32⟩ : BufTy).Contents (Elt Ideal)) (w : (⟨S11008x4096, .f32⟩ : BufTy).Contents (Elt Ideal)) :
    val_main_v0 (F := Ideal) x w = gemv x w := by
  funext i
  rw [val_main_v0_apply]
  unfold gemv
  refine Finset.sum_congr rfl fun k _ => ?_
  rw [lidx_eq, ridx_eq]
  rfl

end Cert.Gemv

end
-- ==== Proof.Payload.lean ====
/-
  What the kernel body stores at one grid point, read at an index.  The body loads the whole activation block
  x0 : [8, 4096] and one block of 512 weight rows x1 : [512, 4096], changes their float format (the identity
  on extended reals), and multiplies x0 by the transpose of x1 into a zero accumulator.  Entry (p, q) of the
  stored block is therefore ∑ k < 4096, x0 (p, k) * x1 (q, k).
-/
import proofs.«121422_j4982162063725_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Gemv

open Idealize.ShloMosaic Idealize.ShloMosaic.ValueIdx Cert.KernelIdeal Cert.KernelIdeal.Gen

/-! The contraction of axis 1 of [8, 4096] with axis 1 of [512, 4096]: the operand indices, coordinate by coordinate. -/

theorem lhs_coord0 (i : S8x512.Idx) (z : dot_S8x4096_S512x4096_S8x512_1_1_0_0_n_n.contr.Idx) :
    (dot_S8x4096_S512x4096_S8x512_1_1_0_0_n_n.lhsIdx i z 0).val = (i 0).val := by
  unfold DotDims.lhsIdx
  rw [dif_neg (show ¬(0 : Fin S8x4096.rank) ∈ dot_S8x4096_S512x4096_S8x512_1_1_0_0_n_n.lhsBatch by decide),
    dif_pos (show (0 : Fin S8x4096.rank) ∈ dot_S8x4096_S512x4096_S8x512_1_1_0_0_n_n.lhsNonContracting by decide)]
  rfl
theorem lhs_coord1 (i : S8x512.Idx) (z : dot_S8x4096_S512x4096_S8x512_1_1_0_0_n_n.contr.Idx) :
    (dot_S8x4096_S512x4096_S8x512_1_1_0_0_n_n.lhsIdx i z 1).val = (z ⟨0, by decide⟩).val :=
  dot_S8x4096_S512x4096_S8x512_1_1_0_0_n_n.lhsIdx_val_of_single rfl i z
theorem rhs_coord0 (i : S8x512.Idx) (z : dot_S8x4096_S512x4096_S8x512_1_1_0_0_n_n.contr.Idx) :
    (dot_S8x4096_S512x4096_S8x512_1_1_0_0_n_n.rhsIdx i z 0).val = (i 1).val := by
  unfold DotDims.rhsIdx
  rw [dif_neg (show ¬(0 : Fin S512x4096.rank) ∈ dot_S8x4096_S512x4096_S8x512_1_1_0_0_n_n.rhsBatch by decide),
    dif_pos (show (0 : Fin S512x4096.rank) ∈ dot_S8x4096_S512x4096_S8x512_1_1_0_0_n_n.rhsNonContracting by decide)]
  rfl
theorem rhs_coord1 (i : S8x512.Idx) (z : dot_S8x4096_S512x4096_S8x512_1_1_0_0_n_n.contr.Idx) :
    (dot_S8x4096_S512x4096_S8x512_1_1_0_0_n_n.rhsIdx i z 1).val = (z ⟨0, by decide⟩).val :=
  dot_S8x4096_S512x4096_S8x512_1_1_0_0_n_n.rhsIdx_val_of_single rfl i z

/-- Entry (p, q) of the stored block is the inner product of row p of the activation block with row q of the weight block. -/
theorem pay_apply (x0 : Vec Ideal S8x4096 .f32) (x1 : Vec Ideal S512x4096 .f32) (p : Fin 8) (q : Fin 512) :
    k0_pay1 (F := Ideal) x0 x1 (ix2 p q) = ∑ k : Fin 4096, x0 (ix2 p k) * x1 (ix2 q k) := by
  unfold k0_pay1
  rw [shapeCast_self, shapeCast_self]
  unfold matmul
  rw [Ideal.matmul_constant_zero_apply,
    ← Equiv.sum_comp (contrEquiv1 dot_S8x4096_S512x4096_S8x512_1_1_0_0_n_n 4096 rfl rfl).symm]
  refine Finset.sum_congr rfl fun k _ => ?_
  have hk := contrEquiv1_symm_val dot_S8x4096_S512x4096_S8x512_1_1_0_0_n_n 4096 rfl rfl k
  have el : dot_S8x4096_S512x4096_S8x512_1_1_0_0_n_n.lhsIdx (ix2 p q)
      ((contrEquiv1 dot_S8x4096_S512x4096_S8x512_1_1_0_0_n_n 4096 rfl rfl).symm k) = ix2 p k :=
    funext fun a => Fin.ext (by
      match a with
      | ⟨0, _⟩ => exact lhs_coord0 _ _
      | ⟨1, _⟩ => exact (lhs_coord1 _ _).trans hk)
  have er : dot_S8x4096_S512x4096_S8x512_1_1_0_0_n_n.rhsIdx (ix2 p q)
      ((contrEquiv1 dot_S8x4096_S512x4096_S8x512_1_1_0_0_n_n 4096 rfl rfl).symm k) = ix2 q k :=
    funext fun a => Fin.ext (by
      match a with
      | ⟨0, _⟩ => exact rhs_coord0 _ _
      | ⟨1, _⟩ => exact (rhs_coord1 _ _).trans hk)
  rw [el, er]
  rfl

end Cert.Gemv

end
-- ==== Proof.Blocks.lean ====
/-
  From blocks to the array.  The output window's array has shape [8, 11264]; grid point t writes back the
  block of all 8 rows and the 512 columns 512·t … 512·t + 511.  The activation window is the whole [8, 4096]
  array at every point, and the weight window's block at point t is rows 512·t … 512·t + 511 of the
  extended weight.  So what point t writes back is the restriction of `rowDots` of the two arrays, as the region
  finds them, to its block; the 22 blocks cover all 11264 columns, hence the array ends holding `rowDots`.
-/
import proofs.«121422_j4982162063725_1_alg».proof.Proof.Gen.KernelIdeal.Frame
import proofs.«121422_j4982162063725_1_alg».proof.Proof.Payload
import proofs.«121422_j4982162063725_1_alg».proof.Proof.Spec

set_option maxRecDepth 16384

noncomputable section

namespace Cert.Gemv

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offsets of the body's whole-block accesses. -/
theorem zero_off : (![0, 0] : Fin 2 → Nat) = fun _ => 0 := funext fun a => by fin_cases a <;> rfl

/-- One stored block, entry by entry, over plain variables: if the activation block is the array `a`, and the
    weight block is rows n·512 … of the array `b`, then entry j of the stored block is `rowDots a b` at the index
    with j's row and column n·512 + j's column. -/
theorem block_entry (a : S8x4096.Idx → EReal) (b : S11264x4096.Idx → EReal)
    (x0 : Vec Ideal S8x4096 .f32) (x1 : Vec Ideal S512x4096 .f32) (n : Nat)
    (h0 : ∀ (p : Fin 8) (k : Fin 4096), x0 (ix2 p k) = a (ix2 p k))
    (h1 : ∀ (q : Fin 512) (k : Fin 4096) (r : Fin 11264), r.val = n * 512 + q.val → x1 (ix2 q k) = b (ix2 r k))
    (j : S8x512.Idx) (i : S8x11264.Idx) (hi0 : (i 0).val = (j 0).val) (hi1 : (i 1).val = n * 512 + (j 1).val) :
    k0_pay1 (F := Ideal) x0 x1 j = rowDots a b i := by
  obtain ⟨p, q, rfl⟩ : ∃ (p : Fin 8) (q : Fin 512), j = ix2 p q := ⟨j 0, j 1, eq_ix2 j⟩
  rw [pay_apply]
  unfold rowDots
  refine Finset.sum_congr rfl fun k _ => ?_
  rw [h0 p k, h1 q k (i 1) hi1]
  have e : (i 0) = p := Fin.ext hi0
  rw [e]

variable (m : (ℓ : Loc nD τ sig) → Buf (Elt Ideal) ℓ)

/-- The printed index maps over the grid: the activation window stays at block (0, 0); the weight window's row
    block is the output window's column block, which is below 22. -/
theorem idx_facts : ∀ t : Fin cfg0.N, win0_0.index t (0 : Fin 2) = 0 ∧ win0_0.index t (1 : Fin 2) = 0
    ∧ win0_1.index t (0 : Fin 2) = win0_2.index t (1 : Fin 2) ∧ win0_1.index t (1 : Fin 2) = 0
    ∧ win0_2.index t (0 : Fin 2) = 0 ∧ win0_2.index t (1 : Fin 2) ≤ 21 :=
  (by decide +kernel : ∀ t : Fin grid0.N, _)

/-- Every column block is some point's. -/
theorem idx_onto : ∀ q : Fin 22, ∃ t : Fin cfg0.N, win0_2.index t = ![0, q.val] :=
  (by decide +kernel : ∀ q : Fin 22, ∃ t : Fin grid0.N, win0_2.index t = ![0, q.val])

/-- What point t writes back is block t of `rowDots` of the flattened activation and the extended weight. -/
theorem flushed_eq (c : Dev nD) (t : Fin cfg0.N) :
    (dats m 0 c).flushed 2 t
      = ((cfg0.win 2).blk t).view.read (Elt Ideal) (rowDots (V m c main_v0) (V m c main_v1)) := by
  show (cfg0.win 2).cut (grid0.coords t) ((dats m 0 c).after 2 t) = _
  rw [after0_2]
  unfold out0_2
  rw [View.canon_unit_zero zero_off]
  simp only [View.ld_unit_zero (S := S8x4096) zero_off, View.ld_unit_zero (S := S512x4096) zero_off]
  obtain ⟨e0, e1, e2, e3, e4, e5⟩ := idx_facts t
  funext j
  refine block_entry (V m c main_v0) (V m c main_v1) (iblk m c 0 t) (iblk m c 1 t) (win0_2.index t (1 : Fin 2)) ?_ ?_ j
    (((cfg0.win 2).blk t).view.emb j) ?_ ?_
  · intro p k
    show V m c main_v0 (((cfg0.win 0).blk t).view.emb (ix2 p k)) = V m c main_v0 (ix2 p k)
    refine congrArg _ (funext fun a => Fin.ext ?_)
    match a with
    | ⟨0, _⟩ => show win0_0.index t (0 : Fin 2) * 8 + 1 * p.val = p.val; omega
    | ⟨1, _⟩ => show win0_0.index t (1 : Fin 2) * 4096 + 1 * k.val = k.val; omega
  · intro q k r hr
    show V m c main_v1 (((cfg0.win 1).blk t).view.emb (ix2 q k)) = V m c main_v1 (ix2 r k)
    refine congrArg _ (funext fun a => Fin.ext ?_)
    match a with
    | ⟨0, _⟩ => show win0_1.index t (0 : Fin 2) * 512 + 1 * q.val = r.val; omega
    | ⟨1, _⟩ => show win0_1.index t (1 : Fin 2) * 4096 + 1 * k.val = k.val; omega
  · show win0_2.index t (0 : Fin 2) * 8 + 1 * (j 0).val = (j 0).val; omega
  · show win0_2.index t (1 : Fin 2) * 512 + 1 * (j 1).val = win0_2.index t (1 : Fin 2) * 512 + (j 1).val; omega

/-- An index of the output array is in point t's block iff each coordinate is in the block's range on its axis. -/
theorem mem_blk (t : Fin cfg0.N) (i : S8x11264.Idx) :
    i ∈ ((cfg0.win 2).blk t).view.set ↔ ∀ a : Fin 2, win0_2.index t a * S8x512.size a ≤ (i a).val
      ∧ (i a).val < win0_2.index t a * S8x512.size a + S8x512.size a := by
  show i ∈ ((View.whole main_v2).slice (win0_2.rect t)).set ↔ _
  rw [View.set_slice_whole, Rect.mem_set_unit]
  exact Iff.rfl

/-- Every index of the output array is in the block of the point whose column block is its column divided by 512. -/
theorem cover (i : S8x11264.Idx) :
    ∃ t : Fin cfg0.N, (cfg0.win 2).flush t = true ∧ i ∈ ((cfg0.win 2).blk t).view.set := by
  have hi0 : (i 0).val < 8 := (i 0).isLt
  have hi1 : (i 1).val < 11264 := (i 1).isLt
  obtain ⟨t, ht⟩ := idx_onto ⟨(i 1).val / 512, by omega⟩
  have q0 : win0_2.index t (0 : Fin 2) = 0 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 512 ≤ (i 1).val ∧ (i 1).val < win0_2.index t (1 : Fin 2) * 512 + 512; omega

/-- The output array after the run: all inner products of the rows of the flattened activation with the rows of
    the extended weight, as the region finds the two. -/
theorem final (c : Dev nD) :
    (dats m 0 c).arrAt 2 cfg0.N = rowDots (V m c main_v0) (V m c main_v1) :=
  (dats m 0 c).arrAt_eq_of_cover 2 _ (fun t _ => flushed_eq m c t) cover

end Cert.Gemv

end
-- ==== Proof.Entry.lean ====
/-
  The two arrays the region is launched on, as functions of the program's arguments.  The activation window's
  array is the argument [8, 1, 4096] flattened to [8, 4096]: entry (b, k) is x (b, 0, k).  The weight window's
  array is the argument [11008, 4096] extended below by 256 rows of a constant: entry (n, k) with n < 11008 is
  w (n, k).  (The rows from 11008 on hold the constant; no kept column of the result reads them.)
-/
import proofs.«121422_j4982162063725_1_alg».proof.Proof.Gen.KernelIdeal.Frame
import Idealize.ShloMosaic.Lib.StableHlo.Run
import Idealize.ShloMosaic.Lib.ValueIdx
import Idealize.ShloMosaic.Lib.Pipeline.Value
import Idealize.ShloMosaic.Lib.KernelVsHost

noncomputable section

namespace Cert.Gemv

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ)

/-- The activation as the region finds it: the argument, flattened. -/
theorem entry_act (c : Dev nD) :
    (V m c main_v0 : S8x4096.Idx → EReal)
      = shapeCast S8x4096 (m ((c : Thread nD τ).loc main_arg0)) shapeCasts_S8x1x4096_S8x4096 := by
  dsimp only [V, V0]
  simp only [hostOps0, hostOps0_1, List.flatten_cons, List.flatten_nil, List.append_nil, List.cons_append,
    List.nil_append]
  after_results
  rfl

/-- The weight as the region finds it: the argument, extended by 256 rows of a constant. -/
theorem entry_wt (c : Dev nD) :
    (V m c main_v1 : S11264x4096.Idx → EReal)
      = pad S11264x4096 ![0, 0] ![256, 0] ![0, 0] (m ((c : Thread nD τ).loc main_arg1))
          (sitofp (F := Ideal) .f32 (constantI S_ 32 0#32)) pads_S11008x4096_S11264x4096_02560_000 h_S_ := by
  dsimp only [V, V0]
  simp only [hostOps0, hostOps0_1, List.flatten_cons, List.flatten_nil, List.append_nil, List.cons_append,
    List.nil_append]
  after_results
  rfl

/-- The flattened activation at (b, k) is the argument at (b, 0, k). -/
theorem entry_act_apply (c : Dev nD) (b : Fin 8) (k : Fin 4096) :
    (V m c main_v0 : S8x4096.Idx → EReal) (ix2 b k) = m ((c : Thread nD τ).loc main_arg0) (ix3 b 0 k) := by
  rw [entry_act]
  refine shapeCast_apply _ _ _ _ ?_
  show (S8x1x4096.rowMajor (ix3 b 0 k)).val = (S8x4096.rowMajor (ix2 b k)).val
  rw [Shape.rowMajor_val_three, Shape.rowMajor_val_two]
  show (b.val * 1 + 0) * 4096 + k.val = b.val * 4096 + k.val
  omega

/-- The extended weight at (r, k), for a row r below 11008, is the argument at (r, k). -/
theorem entry_wt_apply (c : Dev nD) (n : Fin 11008) (r : Fin 11264) (k : Fin 4096) (hr : r.val = n.val) :
    (V m c main_v1 : S11264x4096.Idx → EReal) (ix2 r k) = m ((c : Thread nD τ).loc main_arg1) (ix2 n k) := by
  rw [entry_wt]
  refine pad_apply_of_inside _ _ _ _ _ _ _ _ _ fun a => ?_
  match a with
  | ⟨0, _⟩ => show r.val = 0 + n.val * (0 + 1); omega
  | ⟨1, _⟩ => show k.val = 0 + k.val * (0 + 1); omega

end Cert.Gemv

end
-- ==== Proof.Kept.lean ====
/-
  The kept part of the result.  After the region the program keeps the first 11008 of the 11264 columns of the
  [8, 11264] array and gives the result the shape [8, 1, 11008].  If the array holds `rowDots a p`, where `a` is
  the activation flattened and `p` agrees with the weight on its first 11008 rows, then the result is `gemv`:
  entry (b, 0, n) reads column n < 11008 of row b, which is ∑ k, a (b, k) * p (n, k) = ∑ k, x (b, 0, k) * w (n, k),
  term by term.
-/
import proofs.«121422_j4982162063725_1_alg».proof.KernelIdeal
import proofs.«121422_j4982162063725_1_alg».proof.Proof.Spec
import Idealize.ShloMosaic.Lib.Pipeline.Value

noncomputable section

namespace Cert.Gemv

open Idealize.ShloMosaic Idealize.ShloMosaic.ValueIdx
open Cert.KernelIdeal

theorem kept_eq_gemv (x : S8x1x4096.Idx → EReal) (w : S11008x4096.Idx → EReal)
    (a : S8x4096.Idx → EReal) (p : S11264x4096.Idx → EReal)
    (ha : ∀ (b : Fin 8) (k : Fin 4096), a (ix2 b k) = x (ix3 b 0 k))
    (hp : ∀ (n : Fin 11008) (r : Fin 11264) (k : Fin 4096), r.val = n.val → p (ix2 r k) = w (ix2 n k))
    (hslice : S8x11264.Slices ![0, 0] S8x11008) (hcast : S8x11008.ShapeCasts S8x1x11008) :
    shapeCast S8x1x11008 (extractStridedSlice S8x11008 ![0, 0] (rowDots a p) hslice) hcast = gemv x w := by
  funext i
  obtain ⟨b, s, n, rfl⟩ : ∃ (b : Fin 8) (s : Fin 1) (n : Fin 11008), i = ix3 b s n := ⟨i 0, i 1, i 2, eq_ix3 i⟩
  have hs : s = 0 := Fin.ext (by have := s.isLt; omega)
  subst hs
  have hn : n.val < 11264 := by have := n.isLt; omega
  rw [shapeCast_apply _ hcast (ix3 b 0 n) (ix2 b n) (by
    rw [Shape.rowMajor_val_three, Shape.rowMajor_val_two]
    show b.val * 11008 + n.val = (b.val * 1 + 0) * 11008 + n.val
    omega)]
  rw [extractStridedSlice_apply ![0, 0] _ hslice (ix2 b n) (ix2 b ⟨n.val, hn⟩) (fun a => by
    match a with
    | ⟨0, _⟩ => show b.val = 0 + b.val; omega
    | ⟨1, _⟩ => show n.val = 0 + n.val; omega)]
  unfold rowDots gemv
  refine Finset.sum_congr rfl fun k _ => ?_
  show a (ix2 b k) * p (ix2 ⟨n.val, hn⟩ k) = x (ix3 b 0 k) * w (ix2 n k)
  rw [ha, hp n _ k rfl]

end Cert.Gemv

end
-- ==== Proof.KernelRun.lean ====
/-
  The idealized kernel's run with its result named.  The frame run ends with the output window's array at what the
  22 grid points wrote back (`rowDots` of the flattened activation and the extended weight) and with every other
  buffer at what the two operations after the region make of it: the result buffer holds the first 11008 columns
  of that array, reshaped to [8, 1, 11008] — which is `gemv` of the two arguments.
-/
import proofs.«121422_j4982162063725_1_alg».proof.Proof.Blocks
import proofs.«121422_j4982162063725_1_alg».proof.Proof.Entry
import proofs.«121422_j4982162063725_1_alg».proof.Proof.Kept

noncomputable section

namespace Cert.Gemv

open Idealize.ShloMosaic Idealize.ShloMosaic.TcCoe Idealize.ShloMosaic.ValueIdx Idealize.SL.Sem
open Idealize.ShloMosaic.StableHlo
open Cert.KernelIdeal Cert.KernelIdeal.Gen

variable (m : (ℓ : Loc nD τ sig) → Buf (Elt Ideal) ℓ) (ρ : Dev nD → PrngReg)

/-- The result buffer after the operations that follow the region. -/
theorem tail_value (c : Dev nD) :
    Pipeline.afterTail₀ cfgs (dats m) 0 (V0 m) [hostOps1] c main_v4
      = gemv (m ((c : Thread nD τ).loc main_arg0)) (m ((c : Thread nD τ).loc main_arg1)) := by
  unfold Pipeline.afterTail₀
  show StableHlo.after hostOps1 _ (Proc.devRef .tc main_v4) = _
  after_results
  have hA : Pipeline.withArrays (cfgs 0).spec c (V0 m c) (fun w => (dats m 0 c).arrAt w (cfgs 0).N)
        (Proc.devRef .tc main_v2) = rowDots (V m c main_v0) (V m c main_v1) :=
    (Pipeline.withArrays_arr spec0 launch0.win.arr_inj c (V0 m c) _ 2).trans (final m c)
  show shapeCast S8x1x11008 (extractStridedSlice S8x11008 ![0, 0]
      (Pipeline.withArrays (cfgs 0).spec c (V0 m c) (fun w => (dats m 0 c).arrAt w (cfgs 0).N) (Proc.devRef .tc main_v2))
      slices_S8x11264_S8x11008_0_0) shapeCasts_S8x11008_S8x1x11008 = _
  rw [hA]
  exact kept_eq_gemv _ _ _ _ (entry_act_apply m c) (entry_wt_apply m c) _ _

/-- Every weakly fair execution of the idealized kernel terminates with the result buffer at `gemv` of the two
    arguments, and the arguments unchanged. -/
theorem run : θ_run defs (onTc (τ := τ) (main (F := Ideal))) ⟨m, fun _ => 0, ρ⟩ fun r => ∀ c : Dev nD,
      r.2.mem ((c.tc : Thread nD τ).loc main_v4)
        = gemv (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Gemv

end
-- ==== Proof.lean ====
/-
  A matrix–vector product for eight activations at once: out (b, 0, n) = ∑ k < 4096, x (b, 0, k) * w (n, k), for
  x : [8, 1, 4096] and w : [11008, 4096].

  The reference contracts axis 2 of x with axis 1 of w in one operation.  The kernel flattens x to [8, 4096],
  extends w by 256 constant rows to [11264, 4096], and over a grid of 22 points multiplies the whole activation
  by the transpose of 512 weight rows at a time into a zero accumulator, after changing both operands' float format;
  it then keeps the first 11008 of the 11264 columns and restores the unit axis.  On the extended reals a change of
  float format is the identity and the product into a zero accumulator is the plain sum of products, so each kept
  entry is the same sum of the same 4096 products in the same order as the reference's: no algebraic law beyond
  reading both sides at an index is needed, and the inputs' finiteness is never used.  The extra 256 rows only
  feed columns that are dropped.

  The modules: Spec (the function `gemv`), RefIsSpec (the reference's contraction read at an index), Payload (one
  stored block read at an index), Blocks (the 22 blocks make up the array), Entry (the flattened activation and
  the extended weight read at an index), Kept (the kept columns, reshaped, are `gemv`), KernelRun (the kernel's run
  with its result named).  The three frames are the generated ones — the reference's is its generated run with
  the result dropped — and the idealization rewrote no operation.
-/
import proofs.«121422_j4982162063725_1_alg».proof.Defs
import proofs.«121422_j4982162063725_1_alg».proof.Proof.Gen.Kernel
import proofs.«121422_j4982162063725_1_alg».proof.Proof.Gen.Kernel.Skeleton
import proofs.«121422_j4982162063725_1_alg».proof.Proof.Gen.Kernel.Launch
import proofs.«121422_j4982162063725_1_alg».proof.Proof.Gen.Kernel.Points
import proofs.«121422_j4982162063725_1_alg».proof.Proof.Gen.Kernel.Frame
import proofs.«121422_j4982162063725_1_alg».proof.Proof.Gen.KernelIdeal
import proofs.«121422_j4982162063725_1_alg».proof.Proof.Gen.KernelIdeal.Skeleton
import proofs.«121422_j4982162063725_1_alg».proof.Proof.Gen.KernelIdeal.Launch
import proofs.«121422_j4982162063725_1_alg».proof.Proof.Gen.KernelIdeal.Points
import proofs.«121422_j4982162063725_1_alg».proof.Proof.Gen.KernelIdeal.Frame
import proofs.«121422_j4982162063725_1_alg».proof.Proof.Gen.ReferenceIdeal
import proofs.«121422_j4982162063725_1_alg».proof.Proof.Gen.Pre_finite_inputs
import proofs.«121422_j4982162063725_1_alg».proof.Proof.Gen.ReferenceIdeal.Run
import proofs.«121422_j4982162063725_1_alg».proof.Proof.Gen.ReferenceIdeal.Read
import proofs.«121422_j4982162063725_1_alg».proof.Proof.RefIsSpec
import proofs.«121422_j4982162063725_1_alg».proof.Proof.KernelRun
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing, so there is nothing to preserve. -/
theorem preserves : Cert.preserves_Kernel_KernelIdeal := trivial

/-- From memories that agree on the arguments both idealized programs end with the result at `gemv` of the
    arguments: the kernel by its run with the result named, the reference by its contraction read at an index. -/
theorem algebraic : Cert.algebraic_KernelIdeal_ReferenceIdeal := by
  intro m ρ m' ρ' _ hagree
  refine ⟨fun c => Cert.Gemv.gemv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Gemv.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v0_eq, Cert.Gemv.ref_eq_gemv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
